-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x128 : Shape := ⟨2, ![200000, 128]⟩
abbrev S128x128 : Shape := ⟨2, ![128, 128]⟩
abbrev S100000 : Shape := ⟨1, ![100000]⟩
abbrev S500000 : Shape := ⟨1, ![500000]⟩
abbrev S_ : Shape := ⟨0, ![]⟩

class Facts : Prop where
  bcast_S_S200000x128 : S_.BroadcastsInDim S200000x128 (![] : Fin 0 → Fin S200000x128.rank)
  reducesTo_S200000x128_S_d0_1 : S200000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_

variable [Facts]

def fn_part1 {F : FTy → Type} [FloatOps F] (main_arg3 : FVec F S100000 .f32) (main_v13 : IVec S_ 1) (main_v16 : IVec S100000 1) : IVec S_ 1 :=
  let main_c_5 : IVec S_ 1 := constantI S_ 1 1#1
  let main_v17 : IVec S_ 1 := (fun x v => Host.reduce IntOp.andi x v reducesTo_S100000_S_d0 h_S_) main_v16 main_c_5
  let main_v18 : IVec S_ 1 := andi main_v13 main_v17
  let main_cst_6 : FVec F S_ .f32 := constant S_ .f32 0x3F800000#32
  let main_v19 : FVec F S100000 .f32 := broadcastInDim S100000 ![] bcast_S_S100000 main_cst_6
  let main_v20 : IVec S100000 1 := cmpf .oge main_arg3 main_v19
  let main_c_7 : IVec S_ 1 := constantI S_ 1 1#1
  let main_v21 : IVec S_ 1 := (fun x v => Host.reduce IntOp.andi x v reducesTo_S100000_S_d0 h_S_) main_v20 main_c_7
  let main_v22 : IVec S_ 1 := andi main_v18 main_v21
  main_v22

def fn {F : FTy → Type} [FloatOps F] (main_arg0 : FVec F S200000x128 .f32) (main_arg1 : FVec F S128x128 .f32) (main_arg2 : FVec F S128x128 .f32) (main_arg3 : FVec F S100000 .f32) (main_arg4 : IVec S500000 32) (main_arg5 : IVec S500000 32) (main_arg6 : IVec S100000 32) : IVec S_ 1 :=
  let main_v0 : FVec F S200000x128 .f32 := Host.absf main_arg0
  let main_cst : FVec F S_ .f32 := constant S_ .f32 0x7F800000#32
  let main_v1 : FVec F S200000x128 .f32 := broadcastInDim S200000x128 ![] bcast_S_S200000x128 main_cst
  let main_v2 : IVec S200000x128 1 := cmpf .olt main_v0 main_v1
  let main_c : IVec S_ 1 := constantI S_ 1 1#1
  let main_v3 : IVec S_ 1 := (fun x v => Host.reduce IntOp.andi x v reducesTo_S200000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S100000 .f32 := Host.absf main_arg3
  let main_cst_4 : FVec F S_ .f32 := constant S_ .f32 0x7F800000#32
  let main_v15 : FVec F S100000 .f32 := broadcastInDim S100000 ![] bcast_S_S100000 main_cst_4
  let main_v16 : IVec S100000 1 := cmpf .olt main_v14 main_v15
  fn_part1 (F := F) main_arg3 main_v13 main_v16
-- ==== Kernel.lean ====
abbrev S200000x128 : Shape := ⟨2, ![200000, 128]⟩
abbrev S128x128 : Shape := ⟨2, ![128, 128]⟩
abbrev S100000 : Shape := ⟨1, ![100000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000x128 : Shape := ⟨2, ![100000, 128]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 40
  | .vmem => 10
  | .smem => 0
  | _ => 0

abbrev bufTy : (tb : Table) → Fin (tcTables nBuf tb) → BufTy
  | .hbm, ⟨0, _⟩ => ⟨S200000x128, .f32⟩
  | .hbm, ⟨1, _⟩ => ⟨S128x128, .f32⟩
  | .hbm, ⟨2, _⟩ => ⟨S128x128, .f32⟩
  | .hbm, ⟨3, _⟩ => ⟨S100000, .f32⟩
  | .hbm, ⟨4, _⟩ => ⟨S500000, .i32⟩
  | .hbm, ⟨5, _⟩ => ⟨S500000, .i32⟩
  | .hbm, ⟨6, _⟩ => ⟨S100000, .i32⟩
  | .hbm, ⟨7, _⟩ => ⟨S200000x128, .bf16⟩
  | .hbm, ⟨8, _⟩ => ⟨S_, .i32⟩
  | .hbm, ⟨9, _⟩ => ⟨S500000, .i32⟩
  | .hbm, ⟨10, _⟩ => ⟨S500000, .i1⟩
  | .hbm, ⟨11, _⟩ => ⟨S_, .i32⟩
  | .hbm, ⟨12, _⟩ => ⟨S500000, .i32⟩
  | .hbm, ⟨13, _⟩ => ⟨S500000, .i32⟩
  | .hbm, ⟨14, _⟩ => ⟨S500000, .i32⟩
  | .hbm, ⟨15, _⟩ => ⟨S500000x1, .i32⟩
  | .hbm, ⟨16, _⟩ => ⟨S500000x128, .bf16⟩
  | .hbm, ⟨17, _⟩ => ⟨S500000x128, .f32⟩
  | .hbm, ⟨18, _⟩ => ⟨S_, .f32⟩
  | .hbm, ⟨19, _⟩ => ⟨S100000x128, .f32⟩
  | .hbm, ⟨20, _⟩ => ⟨S500000x1, .i32⟩
  | .hbm, ⟨21, _⟩ => ⟨S100000x128, .f32⟩
  | .hbm, ⟨22, _⟩ => ⟨S_, .i32⟩
  | .hbm, ⟨23, _⟩ => ⟨S100000, .i32⟩
  | .hbm, ⟨24, _⟩ => ⟨S100000, .i1⟩
  | .hbm, ⟨25, _⟩ => ⟨S_, .i32⟩
  | .hbm, ⟨26, _⟩ => ⟨S100000, .i32⟩
  | .hbm, ⟨27, _⟩ => ⟨S100000, .i32⟩
  | .hbm, ⟨28, _⟩ => ⟨S100000, .i32⟩
  | .hbm, ⟨29, _⟩ => ⟨S100000x1, .i32⟩
  | .hbm, ⟨30, _⟩ => ⟨S100000x128, .bf16⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S128x128, .f32⟩
  | .hbm, ⟨36, _⟩ => ⟨S128x128, .bf16⟩
  | .hbm, ⟨37, _⟩ => ⟨S128x128, .f32⟩
  | .hbm, ⟨38, _⟩ => ⟨S128x128, .bf16⟩
  | .hbm, ⟨39, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .bf16⟩
  | .local _ .vmem, ⟨5, _⟩ => ⟨S5000x128, .bf16⟩
  | .local _ .vmem, ⟨6, _⟩ => ⟨S128x128, .bf16⟩
  | .local _ .vmem, ⟨7, _⟩ => ⟨S128x128, .bf16⟩
  | .local _ .vmem, ⟨8, _⟩ => ⟨S5000x128, .f32⟩
  | .local _ .vmem, ⟨9, _⟩ => ⟨S5000x128, .f32⟩
  | _, _ => ⟨S200000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  shapeCasts_S100000_S100000x1 : S100000.ShapeCasts S100000x1
  transposes_S128x128_S128x128_1_0 : S128x128.Transposes [1, 0] S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S5000x1_S5000x128 : S5000x1.Broadcasts S5000x128
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  gather_S200000x128_S100000x1_S100000x128_1_0_n_n_0_1_1128_wf : GatherDims.WF S200000x128 S100000x1 S100000x128 [1] [0] [] [0] [] 1 ![1, 128]
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .bf16 = 32 ∨ (Rect.block (s := S100000x128) S5000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v11) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S200000x128 : Shape := ⟨2, ![200000, 128]⟩
abbrev S128x128 : Shape := ⟨2, ![128, 128]⟩
abbrev S100000 : Shape := ⟨1, ![100000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S100000x128 : Shape := ⟨2, ![100000, 128]⟩
abbrev S100000x1 : Shape := ⟨2, ![100000, 1]⟩

abbrev nBuf : Space → Nat
  | .hbm => 37
  | .vmem => 0
  | .smem => 0
  | _ => 0

abbrev bufTy : (tb : Table) → Fin (tcTables nBuf tb) → BufTy
  | .hbm, ⟨0, _⟩ => ⟨S200000x128, .f32⟩
  | .hbm, ⟨1, _⟩ => ⟨S128x128, .f32⟩
  | .hbm, ⟨2, _⟩ => ⟨S128x128, .f32⟩
  | .hbm, ⟨3, _⟩ => ⟨S100000, .f32⟩
  | .hbm, ⟨4, _⟩ => ⟨S500000, .i32⟩
  | .hbm, ⟨5, _⟩ => ⟨S500000, .i32⟩
  | .hbm, ⟨6, _⟩ => ⟨S100000, .i32⟩
  | .hbm, ⟨7, _⟩ => ⟨S_, .i32⟩
  | .hbm, ⟨8, _⟩ => ⟨S500000, .i32⟩
  | .hbm, ⟨9, _⟩ => ⟨S500000, .i1⟩
  | .hbm, ⟨10, _⟩ => ⟨S_, .i32⟩
  | .hbm, ⟨11, _⟩ => ⟨S500000, .i32⟩
  | .hbm, ⟨12, _⟩ => ⟨S500000, .i32⟩
  | .hbm, ⟨13, _⟩ => ⟨S500000, .i32⟩
  | .hbm, ⟨14, _⟩ => ⟨S500000x1, .i32⟩
  | .hbm, ⟨15, _⟩ => ⟨S500000x128, .f32⟩
  | .hbm, ⟨16, _⟩ => ⟨S_, .f32⟩
  | .hbm, ⟨17, _⟩ => ⟨S100000x128, .f32⟩
  | .hbm, ⟨18, _⟩ => ⟨S500000x1, .i32⟩
  | .hbm, ⟨19, _⟩ => ⟨S100000x128, .f32⟩
  | .hbm, ⟨20, _⟩ => ⟨S100000x1, .f32⟩
  | .hbm, ⟨21, _⟩ => ⟨S100000x128, .f32⟩
  | .hbm, ⟨22, _⟩ => ⟨S100000x128, .f32⟩
  | .hbm, ⟨23, _⟩ => ⟨S128x128, .f32⟩
  | .hbm, ⟨24, _⟩ => ⟨S100000x128, .f32⟩
  | .hbm, ⟨25, _⟩ => ⟨S_, .i32⟩
  | .hbm, ⟨26, _⟩ => ⟨S100000, .i32⟩
  | .hbm, ⟨27, _⟩ => ⟨S100000, .i1⟩
  | .hbm, ⟨28, _⟩ => ⟨S_, .i32⟩
  | .hbm, ⟨29, _⟩ => ⟨S100000, .i32⟩
  | .hbm, ⟨30, _⟩ => ⟨S100000, .i32⟩
  | .hbm, ⟨31, _⟩ => ⟨S100000, .i32⟩
  | .hbm, ⟨32, _⟩ => ⟨S100000x1, .i32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S100000x128, .f32⟩
  | _, _ => ⟨S200000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S_S500000 : S_.BroadcastsInDim S500000 (![] : Fin 0 → Fin S500000.rank)
  bcast_S500000_S500000x1_0 : S500000.BroadcastsInDim S500000x1 (![0] : Fin 1 → Fin S500000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S_S100000 : S_.BroadcastsInDim S100000 (![] : Fin 0 → Fin S100000.rank)
  gather_S200000x128_S500000x1_S500000x128_1_0_n_n_0_1_1128_wf : GatherDims.WF S200000x128 S500000x1 S500000x128 [1] [0] [] [0] [] 1 ![1, 128]
  scatter_S100000x128_S500000x1_S500000x128_1_0_0_1_wf : ScatterDims.WF S100000x128 S500000x1 S500000x128 [1] [0] [0] 1
  dot_S100000x128_S128x128_S100000x128_1_0_0_1_n_n_wf : DotDims.WF S100000x128 S128x128 S100000x128 [1] [0] [0] [1] [] []
  gather_S200000x128_S100000x1_S100000x128_1_0_n_n_0_1_1128_wf : GatherDims.WF S200000x128 S100000x1 S100000x128 [1] [0] [] [0] [] 1 ![1, 128]

variable [Facts₀]

def gather_S200000x128_S500000x1_S500000x128_1_0_n_n_0_1_1128 : GatherDims S200000x128 S500000x1 S500000x128 where
  offsetDims := [1]
  collapsedSliceDims := [0]
  operandBatchingDims := []
  startIndicesBatchingDims := []
  startIndexMap := [0]
  indexVectorDim := 1
  sliceSizes := ![1, 128]
  wf := gather_S200000x128_S500000x1_S500000x128_1_0_n_n_0_1_1128_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S200000x128_S100000x1_S100000x128_1_0_n_n_0_1_1128 : GatherDims S200000x128 S100000x1 S100000x128 where
  offsetDims := [1]
  collapsedSliceDims := [0]
  operandBatchingDims := []
  startIndicesBatchingDims := []
  startIndexMap := [0]
  indexVectorDim := 1
  sliceSizes := ![1, 128]
  wf := gather_S200000x128_S100000x1_S100000x128_1_0_n_n_0_1_1128_wf

class Facts : Prop extends Facts₀ where

variable [Facts]
-- ==== Proof.LibDotRows.lean ====
/-
  A plain matrix product read entry by entry, and cut into row blocks.

  For the dimension numbers "contract axis 1 of an [M, K] left operand with axis 0 of a [K, N] right operand"
  (`DotDims.plain M K N`), over the extended reals:
    * entry (p, q) of the host's product is the sum over k of x[p, k] · w[k, q]          (`dotGeneral_plain_apply`);
    * a kernel's product accumulated into the zero splat is the same sum                  (`matmul_plain_apply`);
    * hence the product of a block of B rows of x (rows r0 … r0 + B − 1) with the whole of w is the
      corresponding block of rows of the whole product                                    (`matmul_rows`).
  Only `0 + s = s` and a re-indexing of the sum are used, so nothing here needs finiteness.
-/
import Idealize.ShloMosaic.Lib.ValueIdx
import Idealize.ShloMosaic.PureOps.Ideal.Laws

noncomputable section

namespace Cert.Lib.DotRows

open Idealize.ShloMosaic Idealize.ShloMosaic.ValueIdx

variable {M K N : Nat} {φ₁ φ₂ : FTy}

/-- The left operand's index at output entry (p, q) and contraction position k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a; apply Fin.ext
  match a with
  | ⟨0, _⟩ => rfl
  | ⟨1, _⟩ => exact ((DotDims.plain M K N).lhsIdx_val_of_single rfl _ _).trans hk

/-- The right operand's index at output entry (p, q) and contraction position k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a; apply Fin.ext
  match a with
  | ⟨0, _⟩ => exact ((DotDims.plain M K N).rhsIdx_val_of_single rfl _ _).trans hk
  | ⟨1, _⟩ => rfl

/-- Entry (p, q) of the host's product x · w is the sum over k of x[p, k] · w[k, q]. -/
theorem dotGeneral_plain_apply (x : FVec Ideal ⟨2, ![M, K]⟩ φ₁) (w : FVec Ideal ⟨2, ![K, N]⟩ φ₂) (p : Fin M) (q : Fin N) :
    Host.dotGeneral (F := Ideal) (DotDims.plain M K N) none x w (ix2 p q) = ∑ k : Fin K, x (ix2 p k) * w (ix2 k q) := by
  simp only [Host.dotGeneral]
  rw [Ideal.dotGeneral_apply, ← Equiv.sum_comp (contrEquiv1 (DotDims.plain M K N) K rfl rfl).symm]
  exact Finset.sum_congr rfl fun k _ => by rw [plain_lhsIdx, plain_rhsIdx]

/-- Entry (p, q) of a kernel's product x · w accumulated into the zero splat is the same sum. -/
theorem matmul_plain_apply (x : FVec Ideal ⟨2, ![M, K]⟩ φ₁) (w : FVec Ideal ⟨2, ![K, N]⟩ φ₂) (p : Fin M) (q : Fin N) :
    matmul (F := Ideal) (DotDims.plain M K N) none x w (constant ⟨2, ![M, N]⟩ .f32 0x00000000#32) (ix2 p q)
      = ∑ k : Fin K, x (ix2 p k) * w (ix2 k q) := by
  simp only [matmul]
  rw [Ideal.matmul_constant_zero_apply, ← Equiv.sum_comp (contrEquiv1 (DotDims.plain M K N) K rfl rfl).symm]
  exact Finset.sum_congr rfl fun k _ => by rw [plain_lhsIdx, plain_rhsIdx]

/-- ROW BLOCKS. If `xb` is the block of `B` rows of `x` that starts at row `r0` (`hx`), then entry (p, q) of the kernel's
    product `xb · w` into the zero splat is entry (r0 + p, q) of the host's product `x · w`. -/
theorem matmul_rows {B : Nat} (x : FVec Ideal ⟨2, ![M, K]⟩ φ₁) (w : FVec Ideal ⟨2, ![K, N]⟩ φ₂)
    (xb : FVec Ideal ⟨2, ![B, K]⟩ φ₁) (r0 : Nat) (p : Fin B) (q : Fin N) (hp : r0 + p.val < M)
    (hx : ∀ k : Fin K, xb (ix2 p k) = x (ix2 ⟨r0 + p.val, hp⟩ k)) :
    matmul (F := Ideal) (DotDims.plain B K N) none xb w (constant ⟨2, ![B, N]⟩ .f32 0x00000000#32) (ix2 p q)
      = Host.dotGeneral (F := Ideal) (DotDims.plain M K N) none x w (ix2 ⟨r0 + p.val, hp⟩ q) := by
  rw [matmul_plain_apply, dotGeneral_plain_apply]
  exact Finset.sum_congr rfl fun k _ => by rw [hx k]

end Cert.Lib.DotRows

end
-- ==== Proof.LibColBroadcast.lean ====
/-
  One column broadcast over many: a `[a, 1]` array broadcast to `[a, b]` reads, at `(p, c)`, the operand's row `p`.
-/
import Idealize.ShloMosaic.Lib.ValueIdx
import Idealize.ShloMosaic.Lib.Pipeline.Value

noncomputable section

namespace Cert.LibColBroadcast

open Idealize.ShloMosaic Idealize.ShloMosaic.ValueIdx

variable {α : Type}

/-- A `[a, 1]` column broadcast to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast

end
-- ==== Proof.BodyEntry.lean ====
/-
  The kernel body's stored value at one entry of its row block.

  The body holds a block of B = 5000 rows: the aggregate block a [B, 128], the degree column c [B, 1], the own features
  s [B, 128], and the two whole transposed weight matrices w1, w2 [128, 128]. It divides each row of a by that row's
  entry of c (the column broadcast along the features), multiplies the quotient by w1, multiplies s by w2, and adds.
  Over the extended reals a change of float format is the identity and a matrix product accumulated into the zero
  splat is the plain sum, so entry (p, q) of what is stored is
      Σ_k (a[p, k] / c[p]) · w1[k, q]  +  Σ_k s[p, k] · w2[k, q].
-/
import proofs.«153616_j82197084110915_2_alg».proof.Proof.Gen.KernelIdeal.Skeleton
import proofs.«153616_j82197084110915_2_alg».proof.Proof.LibDotRows
import proofs.«153616_j82197084110915_2_alg».proof.Proof.LibColBroadcast
import Idealize.ShloMosaic.Lib.Pipeline.Value
import Idealize.ShloMosaic.Lib.ValueIdx

noncomputable section

open scoped BigOperators

namespace Cert.KernelIdeal.Body

open Cert.KernelIdeal Cert.KernelIdeal.Gen
open Idealize.ShloMosaic Idealize.ShloMosaic.ValueIdx

/-- The body's product contracts axis 1 of a [5000, 128] operand with axis 0 of a [128, 128] one. -/
theorem dot_is_plain : dot_S5000x128_S128x128_S5000x128_1_0_0_1_n_n = DotDims.plain 5000 128 128 := rfl

/-- Entry (p, q) of the value the body stores, from the blocks it loaded. -/
theorem payload_entry (a : FVec Ideal S5000x128 .f32) (c : FVec Ideal S5000x1 .f32) (s : FVec Ideal S5000x128 .bf16)
    (w1 w2 : FVec Ideal S128x128 .bf16) (p : Fin 5000) (q : Fin 128) :
    k0_pay1 (F := Ideal) a c s w1 w2 (ix2 p q)
      = (∑ k : Fin 128, Ideal.div (a (ix2 p k)) (c (ix2 p (0 : Fin 1))) * w1 (ix2 k q))
          + ∑ k : Fin 128, s (ix2 p k) * w2 (ix2 k q) := by
  unfold k0_pay1
  simp only [shapeCast_self]
  rw [addf_apply, dot_is_plain]
  rw [Cert.Lib.DotRows.matmul_plain_apply, Cert.Lib.DotRows.matmul_plain_apply]
  refine congrArg₂ (· + ·) (Finset.sum_congr rfl fun k _ => ?_) rfl
  rw [truncf_apply, divf_apply, Cert.LibColBroadcast.broadcastTo_a1_ab_apply]

end Cert.KernelIdeal.Body

end
-- ==== Proof.SageLayer.lean ====
/-
  One layer of neighbourhood aggregation on a bipartite graph, entry by entry, over the extended reals.

  For destination node r and output feature q the layer returns
      Σ_k (A[r, k] / d[r]) · W1t[k, q]  +  Σ_k S[r, k] · W2t[k, q],
  where A[r, ·] is the sum of the source features over r's in-edges, d[r] is r's degree (a column [N, 1]),
  S[r, ·] are r's own features, and W1t, W2t are the two weight matrices already transposed. The quotient is the
  extended reals' exact one. Both programs compute this; they differ only in how d is produced from the degree
  vector: as the vector itself, or as its maximum with a constant. Where the degree is at least that constant the
  maximum is the degree (`floor_absorbed`).
-/
import Idealize.ShloMosaic.PureOps.Ideal
import Idealize.ShloMosaic.Lib.ValueIdx

noncomputable section

open scoped BigOperators

namespace Cert.SageLayer

open Idealize.ShloMosaic Idealize.ShloMosaic.ValueIdx

/-- Entry (r, q) of the layer: the degree-normalised aggregate through the first weight matrix plus the node's own
    features through the second. -/
def entry (A : (⟨2, ![100000, 128]⟩ : Shape).Idx → EReal) (d : (⟨2, ![100000, 1]⟩ : Shape).Idx → EReal)
    (S : (⟨2, ![100000, 128]⟩ : Shape).Idx → EReal) (W1t W2t : (⟨2, ![128, 128]⟩ : Shape).Idx → EReal)
    (r : Fin 100000) (q : Fin 128) : EReal :=
  (∑ k : Fin 128, Ideal.div (A (ix2 r k)) (d (ix2 r (0 : Fin 1))) * W1t (ix2 k q))
    + ∑ k : Fin 128, S (ix2 r k) * W2t (ix2 k q)

/-- The layer's whole result array. -/
def layer (A : (⟨2, ![100000, 128]⟩ : Shape).Idx → EReal) (d : (⟨2, ![100000, 1]⟩ : Shape).Idx → EReal)
    (S : (⟨2, ![100000, 128]⟩ : Shape).Idx → EReal) (W1t W2t : (⟨2, ![128, 128]⟩ : Shape).Idx → EReal) :
    (⟨2, ![100000, 128]⟩ : Shape).Idx → EReal :=
  fun i => entry A d S W1t W2t (i 0) (i 1)

theorem layer_apply (A : (⟨2, ![100000, 128]⟩ : Shape).Idx → EReal) (d : (⟨2, ![100000, 1]⟩ : Shape).Idx → EReal)
    (S : (⟨2, ![100000, 128]⟩ : Shape).Idx → EReal) (W1t W2t : (⟨2, ![128, 128]⟩ : Shape).Idx → EReal)
    (r : Fin 100000) (q : Fin 128) : layer A d S W1t W2t (ix2 r q) = entry A d S W1t W2t r q := rfl

/-- A degree that is at least the floor is its own maximum with the floor. -/
theorem floor_absorbed (x c : EReal) (h : c ≤ x) : max x c = x := max_eq_left h

end Cert.SageLayer

end
-- ==== Proof.KernelLayer.lean ====
/-
  The kernel's result array is the layer of the five arrays its blocks are cut from.

  The grid has 20 points. At point t the kernel reads rows 5000·t … 5000·t + 4999 of the aggregate A [100000, 128], of
  the degree column d [100000, 1] and of the own features S [100000, 128], reads the two transposed weight matrices
  whole, and writes rows 5000·t … 5000·t + 4999 of the result. By the body's entry formula, entry (p, q) of what point
  t writes is
      Σ_k (A[5000·t + p, k] / d[5000·t + p]) · W1t[k, q]  +  Σ_k S[5000·t + p, k] · W2t[k, q],
  which is entry (5000·t + p, q) of the layer. Row r of the result lies in the block of point r / 5000, so the twenty
  blocks cover the array and the array ends holding the layer everywhere.
-/
import proofs.«153616_j82197084110915_2_alg».proof.Proof.Gen.KernelIdeal.Value
import proofs.«153616_j82197084110915_2_alg».proof.Proof.BodyEntry
import proofs.«153616_j82197084110915_2_alg».proof.Proof.SageLayer
import Idealize.ShloMosaic.Lib.Pipeline.Value
import Idealize.ShloMosaic.Lib.ValueIdx

noncomputable section

open scoped BigOperators

namespace Cert.KernelIdeal.Layer

open Cert.KernelIdeal Cert.KernelIdeal.Gen Cert.KernelIdeal.Value
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The block index of each window at point t: the three row-blocked inputs and the output are at block (t, 0), the
    two weight matrices at block (0, 0). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A row of a block at point t is a row of the array. -/
theorem row_in_range (t : Fin cfg0.N) (p : Fin 5000) : 5000 * t.val + p.val < 100000 := by
  have hN : cfg0.N = 20 := N_0
  have ht := t.isLt
  have hp := p.isLt
  omega

/-- The aggregate's block at point t holds rows 5000·t … of the aggregate. -/
theorem aggregate_block (c : Dev nD) (t : Fin cfg0.N) (p : Fin 5000) (k : Fin 128) :
    (iblk m c 0 t : Vec Ideal S5000x128 .f32) (ix2 p k)
      = (V m c main_v11 : S100000x128.Idx → EReal) (ix2 ⟨5000 * t.val + p.val, row_in_range t p⟩ k) := by
  obtain ⟨e0, e1, -⟩ := block_index t
  unfold iblk
  rw [View.read_apply]
  show V m c main_v11 _ = V m c main_v11 _
  refine congrArg (V m c main_v11) (funext fun a => Fin.ext ?_)
  match a with
  | ⟨0, _⟩ => show win0_0.index t (0 : Fin 2) * 5000 + 1 * p.val = 5000 * t.val + p.val; rw [e0]; omega
  | ⟨1, _⟩ => show win0_0.index t (1 : Fin 2) * 128 + 1 * k.val = k.val; rw [e1]; omega

/-- The degree column's block at point t holds rows 5000·t … of the column. -/
theorem degree_block (c : Dev nD) (t : Fin cfg0.N) (p : Fin 5000) :
    (iblk m c 1 t : Vec Ideal S5000x1 .f32) (ix2 p (0 : Fin 1))
      = (V m c main_v21 : S100000x1.Idx → EReal) (ix2 ⟨5000 * t.val + p.val, row_in_range t p⟩ (0 : Fin 1)) := by
  obtain ⟨-, -, e0, e1, -⟩ := block_index t
  unfold iblk
  rw [View.read_apply]
  show V m c main_v21 _ = V m c main_v21 _
  refine congrArg (V m c main_v21) (funext fun a => Fin.ext ?_)
  match a with
  | ⟨0, _⟩ => show win0_1.index t (0 : Fin 2) * 5000 + 1 * p.val = 5000 * t.val + p.val; rw [e0]; omega
  | ⟨1, _⟩ => show win0_1.index t (1 : Fin 2) * 1 + 1 * 0 = 0; rw [e1]

/-- The own features' block at point t holds rows 5000·t … of the own features. -/
theorem own_block (c : Dev nD) (t : Fin cfg0.N) (p : Fin 5000) (k : Fin 128) :
    (iblk m c 2 t : Vec Ideal S5000x128 .bf16) (ix2 p k)
      = (V m c main_v18 : S100000x128.Idx → EReal) (ix2 ⟨5000 * t.val + p.val, row_in_range t p⟩ k) := by
  obtain ⟨-, -, -, -, e0, e1, -⟩ := block_index t
  unfold iblk
  rw [View.read_apply]
  show V m c main_v18 _ = V m c main_v18 _
  refine congrArg (V m c main_v18) (funext fun a => Fin.ext ?_)
  match a with
  | ⟨0, _⟩ => show win0_2.index t (0 : Fin 2) * 5000 + 1 * p.val = 5000 * t.val + p.val; rw [e0]; omega
  | ⟨1, _⟩ => show win0_2.index t (1 : Fin 2) * 128 + 1 * k.val = k.val; rw [e1]; omega

/-- The first weight matrix's block at every point is the whole matrix. -/
theorem weight1_block (c : Dev nD) (t : Fin cfg0.N) (k q : Fin 128) :
    (iblk m c 3 t : Vec Ideal S128x128 .bf16) (ix2 k q) = (V m c main_v23 : S128x128.Idx → EReal) (ix2 k q) := by
  obtain ⟨-, -, -, -, -, -, e0, e1, -⟩ := block_index t
  unfold iblk
  rw [View.read_apply]
  show V m c main_v23 _ = V m c main_v23 _
  refine congrArg (V m c main_v23) (funext fun a => Fin.ext ?_)
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The second weight matrix's block at every point is the whole matrix. -/
theorem weight2_block (c : Dev nD) (t : Fin cfg0.N) (k q : Fin 128) :
    (iblk m c 4 t : Vec Ideal S128x128 .bf16) (ix2 k q) = (V m c main_v25 : S128x128.Idx → EReal) (ix2 k q) := by
  obtain ⟨-, -, -, -, -, -, -, -, e0, e1, -⟩ := block_index t
  unfold iblk
  rw [View.read_apply]
  show V m c main_v25 _ = V m c main_v25 _
  refine congrArg (V m c main_v25) (funext fun a => Fin.ext ?_)
  match a with
  | ⟨0, _⟩ => show win0_4.index t (0 : Fin 2) * 128 + 1 * k.val = k.val; rw [e0]; omega
  | ⟨1, _⟩ => show win0_4.index t (1 : Fin 2) * 128 + 1 * q.val = q.val; rw [e1]; omega

/-- Entry (p, q) of the output's block at point t sits at (5000·t + p, q) of the result array. -/
theorem result_position (t : Fin cfg0.N) (p : Fin 5000) (q : Fin 128) :
    ((cfg0.win 5).blk t).view.emb (ix2 p q) = (ix2 ⟨5000 * t.val + p.val, row_in_range t p⟩ q : S100000x128.Idx) := by
  obtain ⟨-, -, -, -, -, -, -, -, -, -, e0, e1⟩ := block_index t
  funext a
  apply Fin.ext
  match a with
  | ⟨0, _⟩ => show win0_5.index t (0 : Fin 2) * 5000 + 1 * p.val = 5000 * t.val + p.val; rw [e0]; omega
  | ⟨1, _⟩ => show win0_5.index t (1 : Fin 2) * 128 + 1 * q.val = q.val; rw [e1]; omega

/-- The layer of the arrays the region finds. -/
abbrev result (c : Dev nD) : S100000x128.Idx → EReal :=
  Cert.SageLayer.layer (V m c main_v11) (V m c main_v21) (V m c main_v18) (V m c main_v23) (V m c main_v25)

/-- What point t writes back is block t of the layer. -/
theorem flushed_is_layer (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold out0_5
  rw [View.canon_unit_zero origin]
  simp only [View.ld_unit_zero (S := S5000x128) origin, View.ld_unit_zero (S := S5000x1) origin, View.ld_unit_zero (S := S128x128) origin]
  funext j
  obtain ⟨p, q, rfl⟩ : ∃ (p : Fin 5000) (q : Fin 128), j = ix2 p q := ⟨j 0, j 1, eq_ix2 j⟩
  rw [View.read_apply, result_position]
  show k0_pay1 (F := Ideal) (iblk m c 0 t) (iblk m c 1 t) (iblk m c 2 t) (iblk m c 3 t) (iblk m c 4 t) (ix2 p q) = _
  refine (Cert.KernelIdeal.Body.payload_entry (iblk m c 0 t) (iblk m c 1 t) (iblk m c 2 t) (iblk m c 3 t) (iblk m c 4 t) p q).trans ?_
  show _ = Cert.SageLayer.entry (V m c main_v11) (V m c main_v21) (V m c main_v18) (V m c main_v23) (V m c main_v25)
    ⟨5000 * t.val + p.val, row_in_range t p⟩ q
  unfold Cert.SageLayer.entry
  refine congrArg₂ (· + ·) (Finset.sum_congr rfl fun k _ => ?_) (Finset.sum_congr rfl fun k _ => ?_)
  · rw [aggregate_block, degree_block, weight1_block]
  · rw [own_block, weight2_block]

/-- An index of the result array is in point t's block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- Row r of the result is in the block of point r / 5000. -/
theorem blocks_cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, -, -, -, -, -, -, e0, e1⟩ := block_index ⟨(i 0).val / 5000, hlt⟩
  refine ⟨⟨(i 0).val / 5000, hlt⟩, flush0_5 _, ?_⟩
  rw [mem_block]
  intro a
  match a with
  | ⟨0, _⟩ =>
    show win0_5.index ⟨(i 0).val / 5000, hlt⟩ (0 : Fin 2) * 5000 ≤ (i 0).val ∧ (i 0).val < win0_5.index ⟨(i 0).val / 5000, hlt⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, hlt⟩ (1 : Fin 2) * 128 ≤ (i 1).val ∧ (i 1).val < win0_5.index ⟨(i 0).val / 5000, hlt⟩ (1 : Fin 2) * 128 + 128
    rw [e1]
    omega

/-- The result array after the run is the layer. -/
theorem final_is_layer (c : Dev nD) : (dats m 0 c).arrAt 5 cfg0.N = result m c :=
  (dats m 0 c).arrAt_eq_of_cover 5 (result m c) (fun t _ => flushed_is_layer m c t) blocks_cover

/-- The run, read: the result array at the layer of the arrays the region finds, the arguments unchanged. -/
theorem run : θ_run defs (onTc (τ := τ) (main (F := Ideal))) ⟨m, fun _ => 0, ρ⟩ fun r => ∀ c : Dev nD,
      r.2.mem ((c : Thread nD τ).loc main_v26) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final_is_layer m c), (h c).2⟩)
    (Cert.KernelIdeal.Value.run_blocks m ρ)

end Cert.KernelIdeal.Layer

end
-- ==== Proof.ReferenceLayer.lean ====
/-
  The reference computes the layer: its result array, read entry by entry, is `SageLayer.layer` of the scatter-added
  aggregate, the degree vector laid out as a column, the gathered own features and the two transposed weight matrices.

  Entry (r, q) of the reference is the sum of two matrix products' entries. The first product's left operand at (r, k)
  is the aggregate at (r, k) divided by the degree column broadcast along the features, which at (r, k) is the
  column's entry r; so the two sides agree term by term, with no law of arithmetic used.
-/
import proofs.«153616_j82197084110915_2_alg».proof.Proof.Gen.ReferenceIdeal.Read
import proofs.«153616_j82197084110915_2_alg».proof.Proof.SageLayer

noncomputable section

open scoped BigOperators

namespace Cert.ReferenceIdeal.Layer

open Cert.ReferenceIdeal Cert.ReferenceIdeal.Gen Cert.ReferenceIdeal.Read
open Idealize.ShloMosaic Idealize.ShloMosaic.ValueIdx

/-- The reference's result is the layer of its own intermediate arrays. -/
theorem result_is_layer (x0 : (⟨S200000x128, .f32⟩ : BufTy).Contents (Elt Ideal)) (x1 x2 : (⟨S128x128, .f32⟩ : BufTy).Contents (Elt Ideal))
    (x3 : (⟨S100000, .f32⟩ : BufTy).Contents (Elt Ideal)) (x4 x5 : (⟨S500000, .i32⟩ : BufTy).Contents (Elt Ideal))
    (x6 : (⟨S100000, .i32⟩ : BufTy).Contents (Elt Ideal)) :
    val_main_v24 (F := Ideal) x0 x1 x2 x3 x4 x5 x6
      = Cert.SageLayer.layer (val_main_v9 (F := Ideal) x0 x4 x5) (val_main_v10 (F := Ideal) x3) (val_main_v21 (F := Ideal) x0 x6)
          (val_main_v13 (F := Ideal) x1) (val_main_v22 (F := Ideal) x2) := by
  funext i
  obtain ⟨r, q, rfl⟩ : ∃ (r : Fin 100000) (q : Fin 128), i = ix2 r q := ⟨i 0, i 1, eq_ix2 i⟩
  have hl14 : ∀ k : Fin 128, lidx_main_v14 (ix2 r q) k = ix2 r k := fun k =>
    funext fun a => by match a with | ⟨0, _⟩ => rfl | ⟨1, _⟩ => rfl
  have hr14 : ∀ k : Fin 128, ridx_main_v14 (ix2 r q) k = ix2 k q := fun k =>
    funext fun a => by match a with | ⟨0, _⟩ => rfl | ⟨1, _⟩ => rfl
  have hl23 : ∀ k : Fin 128, lidx_main_v23 (ix2 r q) k = ix2 r k := fun k =>
    funext fun a => by match a with | ⟨0, _⟩ => rfl | ⟨1, _⟩ => rfl
  have hr23 : ∀ k : Fin 128, ridx_main_v23 (ix2 r q) k = ix2 k q := fun k =>
    funext fun a => by match a with | ⟨0, _⟩ => rfl | ⟨1, _⟩ => rfl
  have hd : ∀ k : Fin 128, idx_main_v11 (ix2 r k) = ix2 r (0 : Fin 1) := fun k =>
    funext fun a => by match a with | ⟨0, _⟩ => rfl | ⟨1, _⟩ => rfl
  rw [val_main_v24_apply, val_main_v14_apply, val_main_v23_apply, Cert.SageLayer.layer_apply]
  unfold Cert.SageLayer.entry
  simp only [hl14, hr14, hl23, hr23, val_main_v12_apply, val_main_v11_apply, hd, Ideal.hostDivf_def, Ideal.addf_def]

end Cert.ReferenceIdeal.Layer

end
-- ==== Proof.KernelInputs.lean ====
/-
  The five arrays the kernel's region finds, as functions of the program's arguments.

  Before the region the program computes, on the host:
    * the aggregate: the rows of x gathered at the wrapped source indices (an index below zero has 200000 added),
      scatter-added into a zero array [100000, 128] at the destination indices;
    * the degree column: the maximum of the degree vector with the constant vector of the pattern 0x3F800000, laid out
      as [100000, 1];
    * the own features: the rows of x gathered at the wrapped node indices;
    * the two weight matrices, transposed.
  Every change of float format on the way is the identity over the extended reals; the terms below keep them where
  the program has them.
-/
import proofs.«153616_j82197084110915_2_alg».proof.Proof.Gen.KernelIdeal.Frame
import Idealize.ShloMosaic.Lib.StableHlo.Run
import Idealize.ShloMosaic.PureOps.Ideal

noncomputable section

namespace Cert.KernelIdeal.Inputs

open Cert.KernelIdeal Cert.KernelIdeal.Gen
open Idealize.ShloMosaic Idealize.ShloMosaic.TcCoe Idealize.SL.Sem Idealize.ShloMosaic.StableHlo

/-- The aggregate: gathered source rows scatter-added by destination. -/
def aggregate (x0 : (⟨S200000x128, .f32⟩ : BufTy).Contents (Elt Ideal)) (x4 x5 : (⟨S500000, .i32⟩ : BufTy).Contents (Elt Ideal)) :
    (⟨S100000x128, .f32⟩ : BufTy).Contents (Elt Ideal) :=
  Host.scatterAdd scatter_S100000x128_S500000x1_S500000x128_1_0_0_1
    (broadcastInDim S100000x128 ![] bcast_S_S100000x128 (constant (F := Ideal) S_ .f32 0x00000000#32))
    (broadcastInDim S500000x1 ![0] bcast_S500000_S500000x1_0 x5)
    (extf (F := Ideal) .f32 (Host.gather gather_S200000x128_S500000x1_S500000x128_1_0_n_n_0_1_1128 (truncf (F := Ideal) .bf16 x0 bitsLt_bf16_f32)
      (broadcastInDim S500000x1 ![0] bcast_S500000_S500000x1_0
        (select (cmpi .slt x4 (broadcastInDim S500000 ![] bcast_S_S500000 (constantI S_ 32 0#32)))
          (addi x4 (broadcastInDim S500000 ![] bcast_S_S500000 (constantI S_ 32 200000#32))) x4))) bitsLt_bf16_f32)

/-- The degree column: the degree vector floored at the constant, as [100000, 1]. -/
def degreeColumn (x3 : (⟨S100000, .f32⟩ : BufTy).Contents (Elt Ideal)) : (⟨S100000x1, .f32⟩ : BufTy).Contents (Elt Ideal) :=
  shapeCast S100000x1 (maximumf (F := Ideal) x3 (broadcastInDim S100000 ![] bcast_S_S100000 (constant (F := Ideal) S_ .f32 0x3F800000#32)))
    shapeCasts_S100000_S100000x1

/-- The own features: the rows of x gathered at the wrapped node indices. -/
def ownRows (x0 : (⟨S200000x128, .f32⟩ : BufTy).Contents (Elt Ideal)) (x6 : (⟨S100000, .i32⟩ : BufTy).Contents (Elt Ideal)) :
    (⟨S100000x128, .bf16⟩ : BufTy).Contents (Elt Ideal) :=
  Host.gather gather_S200000x128_S100000x1_S100000x128_1_0_n_n_0_1_1128 (truncf (F := Ideal) .bf16 x0 bitsLt_bf16_f32)
    (broadcastInDim S100000x1 ![0] bcast_S100000_S100000x1_0
      (select (cmpi .slt x6 (broadcastInDim S100000 ![] bcast_S_S100000 (constantI S_ 32 0#32)))
        (addi x6 (broadcastInDim S100000 ![] bcast_S_S100000 (constantI S_ 32 200000#32))) x6))

/-- A weight matrix transposed. -/
def weightT (x : (⟨S128x128, .f32⟩ : BufTy).Contents (Elt Ideal)) : (⟨S128x128, .bf16⟩ : BufTy).Contents (Elt Ideal) :=
  truncf (F := Ideal) .bf16 (transpose S128x128 [1, 0] x transposes_S128x128_S128x128_1_0) bitsLt_bf16_f32

variable (m : (ℓ : Loc nD τ sig) → Buf (Elt Ideal) ℓ)

theorem found_aggregate (c : Dev nD) :
    V m c main_v11 = aggregate (m ((c : Thread nD τ).loc main_arg0)) (m ((c : Thread nD τ).loc main_arg4)) (m ((c : Thread nD τ).loc main_arg5)) := by
  dsimp only [V, hostOps0]; after_results; rfl

theorem found_degreeColumn (c : Dev nD) :
    V m c main_v21 = degreeColumn (m ((c : Thread nD τ).loc main_arg3)) := by
  dsimp only [V, hostOps0]; after_results; rfl

theorem found_ownRows (c : Dev nD) :
    V m c main_v18 = ownRows (m ((c : Thread nD τ).loc main_arg0)) (m ((c : Thread nD τ).loc main_arg6)) := by
  dsimp only [V, hostOps0]; after_results_simp; rfl

theorem found_weight1 (c : Dev nD) : V m c main_v23 = weightT (m ((c : Thread nD τ).loc main_arg1)) := by
  dsimp only [V, hostOps0]; after_results; rfl

theorem found_weight2 (c : Dev nD) : V m c main_v25 = weightT (m ((c : Thread nD τ).loc main_arg2)) := by
  dsimp only [V, hostOps0]; after_results; rfl

end Cert.KernelIdeal.Inputs

end
-- ==== Proof.LibAllAtLeast.lean ====
/-
  An array every entry of which passes the test x ≥ c, for one scalar constant c, lies above c entry by entry.

  On the extended reals the comparison "greater or equal" is the order's: the test x ≥ c is the word 1 exactly when
  c ≤ x. A conjunction over a whole array of such tests, computed as a reduction by "and" from a constant down to a
  single word, equals 1 only if every test does; hence c ≤ x i for every index i. The constant is kept as the
  pattern it is written with: nothing here needs its value.
-/
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.LibAllAtLeast

/-- The test "x ≥ c" is the word 1 only when c ≤ x. -/
theorem le_of_cmp_oge (x c : EReal) (h : Ideal.cmp .oge x c = 1#1) : c ≤ x := by
  by_contra hn
  simp [Ideal.cmp, hn] at h

/-- The shape with no axes has one index. -/
instance subsingleton_scalarIdx : Subsingleton (⟨0, ![]⟩ : Shape).Idx := ⟨fun a b => funext fun d => d.elim0⟩

/-- If the conjunction over the whole array of the tests x i ≥ c is 1, every entry is at least c. -/
theorem all_at_least {s : Shape} {axes : List (Fin s.rank)} (x : FVec Ideal s .f32) (w : BitVec 32) (init : IVec ⟨0, ![]⟩ 1)
    (hr : s.ReducesTo axes ⟨0, ![]⟩) (hu : 0 < (⟨0, ![]⟩ : Shape).numel)
    (hb : (⟨0, ![]⟩ : Shape).BroadcastsInDim s (![] : Fin 0 → Fin s.rank))
    (e : Host.reduce IntOp.andi
          (cmpf .oge x (broadcastInDim s ![] hb (constant (F := Ideal) ⟨0, ![]⟩ .f32 w)))
          init hr hu ValueIdx.ix0 = 1#1)
    (i : s.Idx) : Ideal.ofBits .f32 w ≤ x i := by
  have h := Host.reduce_andi_all _ init hr hu ValueIdx.ix0 e i
  exact le_of_cmp_oge (x i) _ h

end Cert.LibAllAtLeast

end
-- ==== Proof.Bridge.lean ====
/-
  The arrays the kernel's region finds are the reference's intermediate arrays.

  Over the extended reals a change of float format is the identity, so the kernel's aggregate, own features and
  transposed weight matrices are, term by term, the reference's scatter-added aggregate, gathered own features and
  transposed weight matrices. The degree columns differ in form only: the reference lays the degree vector out as a
  column; the kernel first takes its maximum with the constant of pattern 0x3F800000. The precondition's last conjunct
  says every degree is at least that constant, and then the maximum is the degree itself: the two columns are equal.
-/
import proofs.«153616_j82197084110915_2_alg».proof.Pre_finite_inputs
import proofs.«153616_j82197084110915_2_alg».proof.Proof.Gen.ReferenceIdeal.Read
import proofs.«153616_j82197084110915_2_alg».proof.Proof.KernelInputs
import proofs.«153616_j82197084110915_2_alg».proof.Proof.LibAllAtLeast
import proofs.«153616_j82197084110915_2_alg».proof.Proof.SageLayer
import Idealize.ShloMosaic.Lib.Pipeline.Value
import Idealize.ShloMosaic.Lib.ValueIdx
import Idealize.ShloMosaic.Lib.Affine

noncomputable section

namespace Cert.Bridge

open Idealize.ShloMosaic Idealize.ShloMosaic.ValueIdx
open Cert.KernelIdeal.Inputs Cert.ReferenceIdeal.Read

/-- The precondition's last conjunct: every degree is at least the constant of pattern 0x3F800000. -/
theorem degree_floor [Cert.Pre_finite_inputs.Facts]
    (x0 : FVec Ideal ⟨2, ![200000, 128]⟩ .f32) (x1 x2 : FVec Ideal ⟨2, ![128, 128]⟩ .f32) (x3 : FVec Ideal ⟨1, ![100000]⟩ .f32)
    (x4 x5 : IVec ⟨1, ![500000]⟩ 32) (x6 : IVec ⟨1, ![100000]⟩ 32)
    (h : Cert.Pre_finite_inputs.fn (F := Ideal) x0 x1 x2 x3 x4 x5 x6 = fun _ => 1#1) (i : (⟨1, ![100000]⟩ : Shape).Idx) :
    Ideal.ofBits .f32 0x3F800000#32 ≤ x3 i := by
  have h0 := congrFun h ix0
  dsimp only [Cert.Pre_finite_inputs.fn, Cert.Pre_finite_inputs.fn_part1] at h0
  have h1 := (IntOp.andi_eq_one.mp h0).2
  exact Cert.LibAllAtLeast.all_at_least x3 _ _ _ _ _ h1 i

/-- The aggregates agree. -/
theorem aggregate_eq (x0 : FVec Ideal ⟨2, ![200000, 128]⟩ .f32) (x4 x5 : IVec ⟨1, ![500000]⟩ 32) :
    (aggregate x0 x4 x5 : (⟨2, ![100000, 128]⟩ : Shape).Idx → EReal) = val_main_v9 (F := Ideal) x0 x4 x5 := rfl

/-- The own features agree. -/
theorem ownRows_eq (x0 : FVec Ideal ⟨2, ![200000, 128]⟩ .f32) (x6 : IVec ⟨1, ![100000]⟩ 32) :
    (ownRows x0 x6 : (⟨2, ![100000, 128]⟩ : Shape).Idx → EReal) = val_main_v21 (F := Ideal) x0 x6 := rfl

/-- The transposed first weight matrices agree. -/
theorem weight1_eq (x1 : FVec Ideal ⟨2, ![128, 128]⟩ .f32) :
    (weightT x1 : (⟨2, ![128, 128]⟩ : Shape).Idx → EReal) = val_main_v13 (F := Ideal) x1 := rfl

/-- The transposed second weight matrices agree. -/
theorem weight2_eq (x2 : FVec Ideal ⟨2, ![128, 128]⟩ .f32) :
    (weightT x2 : (⟨2, ![128, 128]⟩ : Shape).Idx → EReal) = val_main_v22 (F := Ideal) x2 := rfl

/-- Where every degree is at least the constant, the floored degree column is the degree column. -/
theorem degreeColumn_eq (x3 : FVec Ideal ⟨1, ![100000]⟩ .f32)
    (hfloor : ∀ i : (⟨1, ![100000]⟩ : Shape).Idx, Ideal.ofBits .f32 0x3F800000#32 ≤ x3 i) :
    (degreeColumn x3 : (⟨2, ![100000, 1]⟩ : Shape).Idx → EReal) = val_main_v10 (F := Ideal) x3 := by
  funext j
  obtain ⟨r, u, rfl⟩ : ∃ (r : Fin 100000) (u : Fin 1), j = ix2 r u := ⟨j 0, j 1, eq_ix2 j⟩
  have hu : u.val = 0 := by have := u.isLt; omega
  have hidx : idx_main_v10 (ix2 r u) = ix1 r := funext fun a => by match a with | ⟨0, _⟩ => rfl
  rw [val_main_v10_apply, hidx]
  unfold degreeColumn
  rw [shapeCast_apply _ _ (ix2 r u) (ix1 r) (by rw [Shape.rowMajor_val_one, Shape.rowMajor_val_two]; show r.val = r.val * 1 + u.val; omega)]
  rw [maximumf_apply]
  exact Cert.SageLayer.floor_absorbed _ _ (hfloor (ix1 r))

end Cert.Bridge

end
-- ==== Proof.lean ====
/-
  The kernel and its reference compute the same layer of neighbourhood aggregation on a bipartite graph.

  Both programs gather the rows of the feature table x at the (wrapped) source indices and scatter-add them by
  destination into the aggregate A; both gather x at the (wrapped) node indices into the own features S; both
  transpose the two weight matrices. The reference then returns (A / d) · W1ᵀ + S · W2ᵀ with d the degree vector
  broadcast along the features. The kernel does the same arithmetic in twenty row blocks of 5000 destination nodes,
  with the degree first floored at the constant of pattern 0x3F800000 and every operand of its two products passed
  through the 16-bit format. Over the extended reals a change of format is the identity, a product accumulated into
  zero is the plain sum, and a block of rows of the result depends on the same rows of A, d and S only; so the
  kernel's result is the same layer of the same arrays, except that its degree column is the floored one. The
  precondition states that every degree is at least that constant, and then flooring changes nothing.

  No law of arithmetic beyond "max x c = x when c ≤ x" is used: finiteness of the inputs is never opened.
  The frames are the generated ones (the reference's is its run with the result dropped), and the idealization
  rewrote nothing, so there is nothing to preserve.
-/
import proofs.«153616_j82197084110915_2_alg».proof.Defs
import proofs.«153616_j82197084110915_2_alg».proof.Proof.Gen.Kernel
import proofs.«153616_j82197084110915_2_alg».proof.Proof.Gen.Kernel.Skeleton
import proofs.«153616_j82197084110915_2_alg».proof.Proof.Gen.Kernel.Launch
import proofs.«153616_j82197084110915_2_alg».proof.Proof.Gen.Kernel.Points
import proofs.«153616_j82197084110915_2_alg».proof.Proof.Gen.Kernel.Frame
import proofs.«153616_j82197084110915_2_alg».proof.Proof.Gen.KernelIdeal
import proofs.«153616_j82197084110915_2_alg».proof.Proof.Gen.KernelIdeal.Skeleton
import proofs.«153616_j82197084110915_2_alg».proof.Proof.Gen.KernelIdeal.Launch
import proofs.«153616_j82197084110915_2_alg».proof.Proof.Gen.KernelIdeal.Points
import proofs.«153616_j82197084110915_2_alg».proof.Proof.Gen.KernelIdeal.Frame
import proofs.«153616_j82197084110915_2_alg».proof.Proof.Gen.ReferenceIdeal
import proofs.«153616_j82197084110915_2_alg».proof.Proof.Gen.KernelIdeal.Value
import proofs.«153616_j82197084110915_2_alg».proof.Proof.Gen.ReferenceIdeal.Run
import proofs.«153616_j82197084110915_2_alg».proof.Proof.Gen.ReferenceIdeal.Read
import proofs.«153616_j82197084110915_2_alg».proof.Proof.Gen.Pre_finite_inputs
import proofs.«153616_j82197084110915_2_alg».proof.Proof.KernelLayer
import proofs.«153616_j82197084110915_2_alg».proof.Proof.ReferenceLayer
import proofs.«153616_j82197084110915_2_alg».proof.Proof.Bridge
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every degree at least the floor, the kernel's result array and the
    reference's are one array: the layer of the aggregate, the degree column, the own features and the transposed
    weights. -/
theorem algebraic : Cert.algebraic_KernelIdeal_ReferenceIdeal := by
  intro m ρ m' ρ' hpre hagree
  refine ⟨fun c => Cert.KernelIdeal.Layer.result m c, Cert.KernelIdeal.Layer.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6, Cert.ReferenceIdeal.Read.val_main_v24_eq, Cert.ReferenceIdeal.Layer.result_is_layer]
  dsimp only [Cert.KernelIdeal.Layer.result]
  rw [Cert.KernelIdeal.Inputs.found_aggregate m c, Cert.KernelIdeal.Inputs.found_degreeColumn m c,
    Cert.KernelIdeal.Inputs.found_ownRows m c, Cert.KernelIdeal.Inputs.found_weight1 m c,
    Cert.KernelIdeal.Inputs.found_weight2 m c,
    Cert.Bridge.aggregate_eq, Cert.Bridge.ownRows_eq, Cert.Bridge.weight1_eq, Cert.Bridge.weight2_eq,
    Cert.Bridge.degreeColumn_eq _ (fun i => Cert.Bridge.degree_floor _ _ _ _ _ _ _ (hpre c) i)]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
